-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x80000 : Shape := ⟨2, ![2, 80000]⟩
abbrev S10000 : Shape := ⟨1, ![10000]⟩
abbrev S128x1024 : Shape := ⟨2, ![128, 1024]⟩
abbrev S1024 : Shape := ⟨1, ![1024]⟩
abbrev S1024x1024 : Shape := ⟨2, ![1024, 1024]⟩
abbrev S1024x8 : Shape := ⟨2, ![1024, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S1024 .f32) (main_arg7 : FVec F S1024x8 .f32) (main_arg8 : FVec F S8 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x8 .f32 := Host.absf main_arg7
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S10000x128 .f32) (main_arg1 : IVec S2x80000 32) (main_arg2 : IVec S10000 32) (main_arg3 : FVec F S128x1024 .f32) (main_arg4 : FVec F S1024 .f32) (main_arg5 : FVec F S1024x1024 .f32) (main_arg6 : FVec F S1024 .f32) (main_arg7 : FVec F S1024x8 .f32) (main_arg8 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x1024 .f32 := Host.absf main_arg3
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg6 main_arg7 main_arg8 main_v13 main_v16
-- ==== Kernel.lean ====
abbrev S10000x128 : Shape := ⟨2, ![10000, 128]⟩
abbrev S2x80000 : Shape := ⟨2, ![2, 80000]⟩
abbrev S10000 : Shape := ⟨1, ![10000]⟩
abbrev S128x1024 : Shape := ⟨2, ![128, 1024]⟩
abbrev S1024 : Shape := ⟨1, ![1024]⟩
abbrev S1024x1024 : Shape := ⟨2, ![1024, 1024]⟩
abbrev S1024x8 : Shape := ⟨2, ![1024, 8]⟩
abbrev S8 : Shape := ⟨1, ![8]⟩
abbrev S1x80000 : Shape := ⟨2, ![1, 80000]⟩
abbrev S80000 : Shape := ⟨1, ![80000]⟩
abbrev S90000 : Shape := ⟨1, ![90000]⟩
abbrev S_ : Shape := ⟨0, ![]⟩
abbrev S90000x1 : Shape := ⟨2, ![90000, 1]⟩
abbrev S10000x1024 : Shape := ⟨2, ![10000, 1024]⟩
abbrev S1000x128 : Shape := ⟨2, ![1000, 128]⟩
abbrev S1000x1024 : Shape := ⟨2, ![1000, 1024]⟩
abbrev S90000x1024 : Shape := ⟨2, ![90000, 1024]⟩
abbrev S1x1024 : Shape := ⟨2, ![1, 1024]⟩
abbrev S1024x128 : Shape := ⟨2, ![1024, 128]⟩
abbrev S128 : Shape := ⟨1, ![128]⟩
abbrev S1x128 : Shape := ⟨2, ![1, 128]⟩
abbrev S10000x8 : Shape := ⟨2, ![10000, 8]⟩
abbrev S64x8 : Shape := ⟨2, ![64, 8]⟩
abbrev S10000x1 : Shape := ⟨2, ![10000, 1]⟩
abbrev S64x1 : Shape := ⟨2, ![64, 1]⟩

abbrev nBuf : Space → Nat
  | .hbm => 134
  | .vmem => 15
  | .smem => 0
  | _ => 0

abbrev hbmTy0_0 (i : Nat) : BufTy := match i % 128 with
  | 0 => ⟨S10000x128, .f32⟩
  | 1 => ⟨S2x80000, .i32⟩
  | 2 => ⟨S10000, .i32⟩
  | 3 => ⟨S128x1024, .f32⟩
  | 4 => ⟨S1024, .f32⟩
  | 5 => ⟨S1024x1024, .f32⟩
  | 6 => ⟨S1024, .f32⟩
  | 7 => ⟨S1024x8, .f32⟩
  | 8 => ⟨S8, .f32⟩
  | 9 => ⟨S10000, .i32⟩
  | 10 => ⟨S1x80000, .i32⟩
  | 11 => ⟨S80000, .i32⟩
  | 12 => ⟨S90000, .i32⟩
  | 13 => ⟨S1x80000, .i32⟩
  | 14 => ⟨S80000, .i32⟩
  | 15 => ⟨S90000, .i32⟩
  | 16 => ⟨S_, .f32⟩
  | 17 => ⟨S90000, .f32⟩
  | 18 => ⟨S_, .f32⟩
  | 19 => ⟨S10000, .f32⟩
  | 20 => ⟨S90000x1, .i32⟩
  | 21 => ⟨S10000, .f32⟩
  | 22 => ⟨S_, .f32⟩
  | 23 => ⟨S10000, .f32⟩
  | 24 => ⟨S10000, .f32⟩
  | 25 => ⟨S10000, .f32⟩
  | 26 => ⟨S10000x1024, .f32⟩
  | 27 => ⟨S_, .i32⟩
  | 28 => ⟨S90000, .i32⟩
  | 29 => ⟨S90000, .i1⟩
  | 30 => ⟨S_, .i32⟩
  | 31 => ⟨S90000, .i32⟩
  | 32 => ⟨S90000, .i32⟩
  | 33 => ⟨S90000, .i32⟩
  | 34 => ⟨S90000x1, .i32⟩
  | 35 => ⟨S90000, .f32⟩
  | 36 => ⟨S_, .i32⟩
  | 37 => ⟨S90000, .i32⟩
  | 38 => ⟨S90000, .i1⟩
  | 39 => ⟨S_, .i32⟩
  | 40 => ⟨S90000, .i32⟩
  | 41 => ⟨S90000, .i32⟩
  | 42 => ⟨S90000, .i32⟩
  | 43 => ⟨S90000x1, .i32⟩
  | 44 => ⟨S90000, .f32⟩
  | 45 => ⟨S90000, .f32⟩
  | 46 => ⟨S90000x1, .f32⟩
  | 47 => ⟨S_, .i32⟩
  | 48 => ⟨S90000, .i32⟩
  | 49 => ⟨S90000, .i1⟩
  | 50 => ⟨S_, .i32⟩
  | 51 => ⟨S90000, .i32⟩
  | 52 => ⟨S90000, .i32⟩
  | 53 => ⟨S90000, .i32⟩
  | 54 => ⟨S90000x1, .i32⟩
  | 55 => ⟨S90000x1024, .f32⟩
  | 56 => ⟨S90000x1024, .f32⟩
  | 57 => ⟨S90000x1024, .f32⟩
  | 58 => ⟨S_, .f32⟩
  | 59 => ⟨S10000x1024, .f32⟩
  | 60 => ⟨S90000x1, .i32⟩
  | 61 => ⟨S10000x1024, .f32⟩
  | 62 => ⟨S1x1024, .f32⟩
  | 63 => ⟨S10000x1024, .f32⟩
  | 64 => ⟨S10000x1024, .f32⟩
  | 65 => ⟨S_, .f32⟩
  | 66 => ⟨S10000x1024, .f32⟩
  | 67 => ⟨S10000x1024, .f32⟩
  | 68 => ⟨S10000x1024, .f32⟩
  | 69 => ⟨S_, .i32⟩
  | 70 => ⟨S90000, .i32⟩
  | 71 => ⟨S90000, .i1⟩
  | 72 => ⟨S_, .i32⟩
  | 73 => ⟨S90000, .i32⟩
  | 74 => ⟨S90000, .i32⟩
  | 75 => ⟨S90000, .i32⟩
  | 76 => ⟨S90000x1, .i32⟩
  | 77 => ⟨S90000, .f32⟩
  | 78 => ⟨S_, .i32⟩
  | 79 => ⟨S90000, .i32⟩
  | 80 => ⟨S90000, .i1⟩
  | 81 => ⟨S_, .i32⟩
  | 82 => ⟨S90000, .i32⟩
  | 83 => ⟨S90000, .i32⟩
  | 84 => ⟨S90000, .i32⟩
  | 85 => ⟨S90000x1, .i32⟩
  | 86 => ⟨S90000, .f32⟩
  | 87 => ⟨S90000, .f32⟩
  | 88 => ⟨S90000x1, .f32⟩
  | 89 => ⟨S_, .i32⟩
  | 90 => ⟨S90000, .i32⟩
  | 91 => ⟨S90000, .i1⟩
  | 92 => ⟨S_, .i32⟩
  | 93 => ⟨S90000, .i32⟩
  | 94 => ⟨S90000, .i32⟩
  | 95 => ⟨S90000, .i32⟩
  | 96 => ⟨S90000x1, .i32⟩
  | 97 => ⟨S90000x1024, .f32⟩
  | 98 => ⟨S90000x1024, .f32⟩
  | 99 => ⟨S90000x1024, .f32⟩
  | 100 => ⟨S_, .f32⟩
  | 101 => ⟨S10000x1024, .f32⟩
  | 102 => ⟨S90000x1, .i32⟩
  | 103 => ⟨S10000x1024, .f32⟩
  | 104 => ⟨S1x1024, .f32⟩
  | 105 => ⟨S10000x1024, .f32⟩
  | 106 => ⟨S10000x1024, .f32⟩
  | 107 => ⟨S_, .i32⟩
  | 108 => ⟨S_, .f32⟩
  | 109 => ⟨S1024x128, .f32⟩
  | 110 => ⟨S_, .i32⟩
  | 111 => ⟨S_, .f32⟩
  | 112 => ⟨S128, .f32⟩
  | 113 => ⟨S10000x128, .f32⟩
  | 114 => ⟨S1x128, .f32⟩
  | 115 => ⟨S10000x128, .f32⟩
  | 116 => ⟨S10000x128, .f32⟩
  | 117 => ⟨S10000x128, .f32⟩
  | 118 => ⟨S10000x8, .f32⟩
  | 119 => ⟨S_, .f32⟩
  | 120 => ⟨S64x8, .f32⟩
  | 121 => ⟨S10000x1, .i32⟩
  | 122 => ⟨S64x8, .f32⟩
  | 123 => ⟨S_, .f32⟩
  | 124 => ⟨S10000x1, .f32⟩
  | 125 => ⟨S_, .f32⟩
  | 126 => ⟨S64x1, .f32⟩
  | 127 => ⟨S10000x1, .i32⟩
  | _ => ⟨S10000x128, .f32⟩

abbrev hbmTy0_1 (i : Nat) : BufTy := match i % 128 with
  | 0 => ⟨S64x1, .f32⟩
  | 1 => ⟨S_, .f32⟩
  | 2 => ⟨S64x1, .f32⟩
  | 3 => ⟨S64x1, .f32⟩
  | 4 => ⟨S64x8, .f32⟩
  | 5 => ⟨S64x8, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x1024, .f32⟩
  | .local _ .vmem, ⟨3, _⟩ => ⟨S1000x1024, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1024x1024, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | .local _ .vmem, ⟨12, _⟩ => ⟨S1024x128, .f32⟩
  | .local _ .vmem, ⟨13, _⟩ => ⟨S1000x128, .f32⟩
  | .local _ .vmem, ⟨14, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_15 : Ref sig .tc := ⟨.hbm, 107, rfl⟩
abbrev main_call1_v0 : Ref sig .tc := ⟨.hbm, 108, rfl⟩
abbrev main_v79 : Ref sig .tc := ⟨.hbm, 109, rfl⟩
abbrev main_c_16 : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_18 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x80000_S1x80000_0_0 : S2x80000.Slices ![0, 0] S1x80000
  shapeCasts_S1x80000_S80000 : S1x80000.ShapeCasts S80000
  concatenates_S80000_S10000_S90000_d0 : Shape.Concatenates [S80000, S10000] S90000 0
  slices_S2x80000_S1x80000_1_0 : S2x80000.Slices ![1, 0] S1x80000
  bcast_S_S90000 : S_.BroadcastsInDim S90000 (![] : Fin 0 → Fin S90000.rank)
  bcast_S_S10000 : S_.BroadcastsInDim S10000 (![] : Fin 0 → Fin S10000.rank)
  bcast_S90000_S90000x1_0 : S90000.BroadcastsInDim S90000x1 (![0] : Fin 1 → Fin S90000x1.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1000x1024_S1000x1024_0_0 : ∀ a, (![0, 0] : Fin 2 → Nat) a + S1000x1024.size a ≤ S1000x1024.size a
  h_S1000x1024 : 0 < S1000x1024.numel
  bcast_S90000x1_S90000x1024_0_1 : S90000x1.BroadcastsInDim S90000x1024 (![0, 1] : Fin 2 → Fin S90000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  shapeCasts_S1000x1024_S1000x1024 : S1000x1024.ShapeCasts S1000x1024
  inb_S1024x1024_S1024x1024_0_0 : ∀ a, (![0, 0] : Fin 2 → Nat) a + S1024x1024.size a ≤ S1024x1024.size a
  h_S1024x1024 : 0 < S1024x1024.numel
  pads_S1024x8_S1024x128_000_01200 : S1024x8.Pads (![0, 0] : Fin 2 → Nat) ![0, 120] ![0, 0] S1024x128
  h_S_ : 0 < S_.numel
  pads_S8_S128_01200 : S8.Pads (![0] : Fin 1 → Nat) ![120] ![0] S128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S10000x128_S10000x8_0_0 : S10000x128.Slices ![0, 0] S10000x8
  bcast_S_S64x8 : S_.BroadcastsInDim S64x8 (![] : Fin 0 → Fin S64x8.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S64x1 : S_.BroadcastsInDim S64x1 (![] : Fin 0 → Fin S64x1.rank)
  bcast_S64x1_S64x8_0_1 : S64x1.BroadcastsInDim S64x8 (![0, 1] : Fin 2 → Fin S64x8.rank)
  scatter_S10000_S90000x1_S90000_n_0_0_1_wf : ScatterDims.WF S10000 S90000x1 S90000 [] [0] [0] 1
  dot_S1000x128_S128x1024_S1000x1024_1_0_0_1_n_n_wf : DotDims.WF S1000x128 S128x1024 S1000x1024 [1] [0] [0] [1] [] []
  gather_S10000_S90000x1_S90000_n_0_n_n_0_1_1_wf : GatherDims.WF S10000 S90000x1 S90000 [] [0] [] [0] [] 1 ![1]
  gather_S10000x1024_S90000x1_S90000x1024_1_0_n_n_0_1_11024_wf : GatherDims.WF S10000x1024 S90000x1 S90000x1024 [1] [0] [] [0] [] 1 ![1, 1024]
  scatter_S10000x1024_S90000x1_S90000x1024_1_0_0_1_wf : ScatterDims.WF S10000x1024 S90000x1 S90000x1024 [1] [0] [0] 1
  dot_S1000x1024_S1024x1024_S1000x1024_1_0_0_1_n_n_wf : DotDims.WF S1000x1024 S1024x1024 S1000x1024 [1] [0] [0] [1] [] []
  dot_S1000x1024_S1024x128_S1000x128_1_0_0_1_n_n_wf : DotDims.WF S1000x1024 S1024x128 S1000x128 [1] [0] [0] [1] [] []
  scatter_S64x8_S10000x1_S10000x8_1_0_0_1_wf : ScatterDims.WF S64x8 S10000x1 S10000x8 [1] [0] [0] 1
  scatter_S64x1_S10000x1_S10000x1_1_0_0_1_wf : ScatterDims.WF S64x1 S10000x1 S10000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S10000x1024.size a
  hwx0_2 : ∀ i : grid0.Coords, EltTy.bits .f32 = 32 ∨ (Rect.block (s := S10000x1024) S1000x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S10000x1024.size a
  hwx1_0 : ∀ i : grid1.Coords, EltTy.bits .f32 = 32 ∨ (Rect.block (s := S10000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1024.size a ≤ S10000x1024.size a
  hwx1_2 : ∀ i : grid1.Coords, EltTy.bits .f32 = 32 ∨ (Rect.block (s := S10000x1024) S1000x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S10000x1024.size a
  hwx2_0 : ∀ i : grid2.Coords, EltTy.bits .f32 = 32 ∨ (Rect.block (s := S10000x1024) S1000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)

variable [Facts₀]

def scatter_S10000_S90000x1_S90000_n_0_0_1 : ScatterDims S10000 S90000x1 S90000 where
  updateWindowDims := []
  insertedWindowDims := [0]
  scatterDimsToOperandDims := [0]
  indexVectorDim := 1
  wf := scatter_S10000_S90000x1_S90000_n_0_0_1_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf
def gather_S10000_S90000x1_S90000_n_0_n_n_0_1_1 : GatherDims S10000 S90000x1 S90000 where
  offsetDims := []
  collapsedSliceDims := [0]
  operandBatchingDims := []
  startIndicesBatchingDims := []
  startIndexMap := [0]
  indexVectorDim := 1
  sliceSizes := ![1]
  wf := gather_S10000_S90000x1_S90000_n_0_n_n_0_1_1_wf
def gather_S10000x1024_S90000x1_S90000x1024_1_0_n_n_0_1_11024 : GatherDims S10000x1024 S90000x1 S90000x1024 where
  offsetDims := [1]
  collapsedSliceDims := [0]
  operandBatchingDims := []
  startIndicesBatchingDims := []
  startIndexMap := [0]
  indexVectorDim := 1
  sliceSizes := ![1, 1024]
  wf := gather_S10000x1024_S90000x1_S90000x1024_1_0_n_n_0_1_11024_wf
def scatter_S10000x1024_S90000x1_S90000x1024_1_0_0_1 : ScatterDims S10000x1024 S90000x1 S90000x1024 where
  updateWindowDims := [1]
  insertedWindowDims := [0]
  scatterDimsToOperandDims := [0]
  indexVectorDim := 1
  wf := scatter_S10000x1024_S90000x1_S90000x1024_1_0_0_1_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def scatter_S64x8_S10000x1_S10000x8_1_0_0_1 : ScatterDims S64x8 S10000x1 S10000x8 where
  updateWindowDims := [1]
  insertedWindowDims := [0]
  scatterDimsToOperandDims := [0]
  indexVectorDim := 1
  wf := scatter_S64x8_S10000x1_S10000x8_1_0_0_1_wf
def scatter_S64x1_S10000x1_S10000x1_1_0_0_1 : ScatterDims S64x1 S10000x1 S10000x1 where
  updateWindowDims := [1]
  insertedWindowDims := [0]
  scatterDimsToOperandDims := [0]
  indexVectorDim := 1
  wf := scatter_S64x1_S10000x1_S10000x1_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1000x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x80000 : Shape := ⟨2, ![2, 80000]⟩
abbrev S10000 : Shape := ⟨1, ![10000]⟩
abbrev S128x1024 : Shape := ⟨2, ![128, 1024]⟩
abbrev S1024 : Shape := ⟨1, ![1024]⟩
abbrev S1024x1024 : Shape := ⟨2, ![1024, 1024]⟩
abbrev S1024x8 : Shape := ⟨2, ![1024, 8]⟩
abbrev S8 : Shape := ⟨1, ![8]⟩
abbrev S1x80000 : Shape := ⟨2, ![1, 80000]⟩
abbrev S80000 : Shape := ⟨1, ![80000]⟩
abbrev S90000 : Shape := ⟨1, ![90000]⟩
abbrev S_ : Shape := ⟨0, ![]⟩
abbrev S90000x1 : Shape := ⟨2, ![90000, 1]⟩
abbrev S10000x1024 : Shape := ⟨2, ![10000, 1024]⟩
abbrev S90000x1024 : Shape := ⟨2, ![90000, 1024]⟩
abbrev S1x1024 : Shape := ⟨2, ![1, 1024]⟩
abbrev S10000x8 : Shape := ⟨2, ![10000, 8]⟩
abbrev S1x8 : Shape := ⟨2, ![1, 8]⟩
abbrev S64x8 : Shape := ⟨2, ![64, 8]⟩
abbrev S10000x1 : Shape := ⟨2, ![10000, 1]⟩
abbrev S64x1 : Shape := ⟨2, ![64, 1]⟩

abbrev nBuf : Space → Nat
  | .hbm => 127
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x80000, .i32⟩
  | .hbm, ⟨2, _⟩ => ⟨S10000, .i32⟩
  | .hbm, ⟨3, _⟩ => ⟨S128x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S8, .f32⟩
  | .hbm, ⟨9, _⟩ => ⟨S10000, .i32⟩
  | .hbm, ⟨10, _⟩ => ⟨S1x80000, .i32⟩
  | .hbm, ⟨11, _⟩ => ⟨S80000, .i32⟩
  | .hbm, ⟨12, _⟩ => ⟨S90000, .i32⟩
  | .hbm, ⟨13, _⟩ => ⟨S1x80000, .i32⟩
  | .hbm, ⟨14, _⟩ => ⟨S80000, .i32⟩
  | .hbm, ⟨15, _⟩ => ⟨S90000, .i32⟩
  | .hbm, ⟨16, _⟩ => ⟨S_, .f32⟩
  | .hbm, ⟨17, _⟩ => ⟨S90000, .f32⟩
  | .hbm, ⟨18, _⟩ => ⟨S_, .f32⟩
  | .hbm, ⟨19, _⟩ => ⟨S10000, .f32⟩
  | .hbm, ⟨20, _⟩ => ⟨S90000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000x1024, .f32⟩
  | .hbm, ⟨27, _⟩ => ⟨S_, .i32⟩
  | .hbm, ⟨28, _⟩ => ⟨S90000, .i32⟩
  | .hbm, ⟨29, _⟩ => ⟨S90000, .i1⟩
  | .hbm, ⟨30, _⟩ => ⟨S_, .i32⟩
  | .hbm, ⟨31, _⟩ => ⟨S90000, .i32⟩
  | .hbm, ⟨32, _⟩ => ⟨S90000, .i32⟩
  | .hbm, ⟨33, _⟩ => ⟨S90000, .i32⟩
  | .hbm, ⟨34, _⟩ => ⟨S90000x1, .i32⟩
  | .hbm, ⟨35, _⟩ => ⟨S90000, .f32⟩
  | .hbm, ⟨36, _⟩ => ⟨S_, .i32⟩
  | .hbm, ⟨37, _⟩ => ⟨S90000, .i32⟩
  | .hbm, ⟨38, _⟩ => ⟨S90000, .i1⟩
  | .hbm, ⟨39, _⟩ => ⟨S_, .i32⟩
  | .hbm, ⟨40, _⟩ => ⟨S90000, .i32⟩
  | .hbm, ⟨41, _⟩ => ⟨S90000, .i32⟩
  | .hbm, ⟨42, _⟩ => ⟨S90000, .i32⟩
  | .hbm, ⟨43, _⟩ => ⟨S90000x1, .i32⟩
  | .hbm, ⟨44, _⟩ => ⟨S90000, .f32⟩
  | .hbm, ⟨45, _⟩ => ⟨S90000, .f32⟩
  | .hbm, ⟨46, _⟩ => ⟨S90000x1, .f32⟩
  | .hbm, ⟨47, _⟩ => ⟨S_, .i32⟩
  | .hbm, ⟨48, _⟩ => ⟨S90000, .i32⟩
  | .hbm, ⟨49, _⟩ => ⟨S90000, .i1⟩
  | .hbm, ⟨50, _⟩ => ⟨S_, .i32⟩
  | .hbm, ⟨51, _⟩ => ⟨S90000, .i32⟩
  | .hbm, ⟨52, _⟩ => ⟨S90000, .i32⟩
  | .hbm, ⟨53, _⟩ => ⟨S90000, .i32⟩
  | .hbm, ⟨54, _⟩ => ⟨S90000x1, .i32⟩
  | .hbm, ⟨55, _⟩ => ⟨S90000x1024, .f32⟩
  | .hbm, ⟨56, _⟩ => ⟨S90000x1024, .f32⟩
  | .hbm, ⟨57, _⟩ => ⟨S90000x1024, .f32⟩
  | .hbm, ⟨58, _⟩ => ⟨S_, .f32⟩
  | .hbm, ⟨59, _⟩ => ⟨S10000x1024, .f32⟩
  | .hbm, ⟨60, _⟩ => ⟨S90000x1, .i32⟩
  | .hbm, ⟨61, _⟩ => ⟨S10000x1024, .f32⟩
  | .hbm, ⟨62, _⟩ => ⟨S1x1024, .f32⟩
  | .hbm, ⟨63, _⟩ => ⟨S10000x1024, .f32⟩
  | .hbm, ⟨64, _⟩ => ⟨S10000x1024, .f32⟩
  | .hbm, ⟨65, _⟩ => ⟨S_, .f32⟩
  | .hbm, ⟨66, _⟩ => ⟨S10000x1024, .f32⟩
  | .hbm, ⟨67, _⟩ => ⟨S10000x1024, .f32⟩
  | .hbm, ⟨68, _⟩ => ⟨S10000x1024, .f32⟩
  | .hbm, ⟨69, _⟩ => ⟨S_, .i32⟩
  | .hbm, ⟨70, _⟩ => ⟨S90000, .i32⟩
  | .hbm, ⟨71, _⟩ => ⟨S90000, .i1⟩
  | .hbm, ⟨72, _⟩ => ⟨S_, .i32⟩
  | .hbm, ⟨73, _⟩ => ⟨S90000, .i32⟩
  | .hbm, ⟨74, _⟩ => ⟨S90000, .i32⟩
  | .hbm, ⟨75, _⟩ => ⟨S90000, .i32⟩
  | .hbm, ⟨76, _⟩ => ⟨S90000x1, .i32⟩
  | .hbm, ⟨77, _⟩ => ⟨S90000, .f32⟩
  | .hbm, ⟨78, _⟩ => ⟨S_, .i32⟩
  | .hbm, ⟨79, _⟩ => ⟨S90000, .i32⟩
  | .hbm, ⟨80, _⟩ => ⟨S90000, .i1⟩
  | .hbm, ⟨81, _⟩ => ⟨S_, .i32⟩
  | .hbm, ⟨82, _⟩ => ⟨S90000, .i32⟩
  | .hbm, ⟨83, _⟩ => ⟨S90000, .i32⟩
  | .hbm, ⟨84, _⟩ => ⟨S90000, .i32⟩
  | .hbm, ⟨85, _⟩ => ⟨S90000x1, .i32⟩
  | .hbm, ⟨86, _⟩ => ⟨S90000, .f32⟩
  | .hbm, ⟨87, _⟩ => ⟨S90000, .f32⟩
  | .hbm, ⟨88, _⟩ => ⟨S90000x1, .f32⟩
  | .hbm, ⟨89, _⟩ => ⟨S_, .i32⟩
  | .hbm, ⟨90, _⟩ => ⟨S90000, .i32⟩
  | .hbm, ⟨91, _⟩ => ⟨S90000, .i1⟩
  | .hbm, ⟨92, _⟩ => ⟨S_, .i32⟩
  | .hbm, ⟨93, _⟩ => ⟨S90000, .i32⟩
  | .hbm, ⟨94, _⟩ => ⟨S90000, .i32⟩
  | .hbm, ⟨95, _⟩ => ⟨S90000, .i32⟩
  | .hbm, ⟨96, _⟩ => ⟨S90000x1, .i32⟩
  | .hbm, ⟨97, _⟩ => ⟨S90000x1024, .f32⟩
  | .hbm, ⟨98, _⟩ => ⟨S90000x1024, .f32⟩
  | .hbm, ⟨99, _⟩ => ⟨S90000x1024, .f32⟩
  | .hbm, ⟨100, _⟩ => ⟨S_, .f32⟩
  | .hbm, ⟨101, _⟩ => ⟨S10000x1024, .f32⟩
  | .hbm, ⟨102, _⟩ => ⟨S90000x1, .i32⟩
  | .hbm, ⟨103, _⟩ => ⟨S10000x1024, .f32⟩
  | .hbm, ⟨104, _⟩ => ⟨S1x1024, .f32⟩
  | .hbm, ⟨105, _⟩ => ⟨S10000x1024, .f32⟩
  | .hbm, ⟨106, _⟩ => ⟨S10000x1024, .f32⟩
  | .hbm, ⟨107, _⟩ => ⟨S10000x8, .f32⟩
  | .hbm, ⟨108, _⟩ => ⟨S1x8, .f32⟩
  | .hbm, ⟨109, _⟩ => ⟨S10000x8, .f32⟩
  | .hbm, ⟨110, _⟩ => ⟨S10000x8, .f32⟩
  | .hbm, ⟨111, _⟩ => ⟨S10000x8, .f32⟩
  | .hbm, ⟨112, _⟩ => ⟨S_, .f32⟩
  | .hbm, ⟨113, _⟩ => ⟨S64x8, .f32⟩
  | .hbm, ⟨114, _⟩ => ⟨S10000x1, .i32⟩
  | .hbm, ⟨115, _⟩ => ⟨S64x8, .f32⟩
  | .hbm, ⟨116, _⟩ => ⟨S_, .f32⟩
  | .hbm, ⟨117, _⟩ => ⟨S10000x1, .f32⟩
  | .hbm, ⟨118, _⟩ => ⟨S_, .f32⟩
  | .hbm, ⟨119, _⟩ => ⟨S64x1, .f32⟩
  | .hbm, ⟨120, _⟩ => ⟨S10000x1, .i32⟩
  | .hbm, ⟨121, _⟩ => ⟨S64x1, .f32⟩
  | .hbm, ⟨122, _⟩ => ⟨S_, .f32⟩
  | .hbm, ⟨123, _⟩ => ⟨S64x1, .f32⟩
  | .hbm, ⟨124, _⟩ => ⟨S64x1, .f32⟩
  | .hbm, ⟨125, _⟩ => ⟨S64x8, .f32⟩
  | .hbm, ⟨126, _⟩ => ⟨S64x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  concatenates_S80000_S10000_S90000_d0 : Shape.Concatenates [S80000, S10000] S90000 0
  slices_S2x80000_S1x80000_1_0 : S2x80000.Slices ![1, 0] S1x80000
  bcast_S_S90000 : S_.BroadcastsInDim S90000 (![] : Fin 0 → Fin S90000.rank)
  bcast_S_S10000 : S_.BroadcastsInDim S10000 (![] : Fin 0 → Fin S10000.rank)
  bcast_S90000_S90000x1_0 : S90000.BroadcastsInDim S90000x1 (![0] : Fin 1 → Fin S90000x1.rank)
  bcast_S90000x1_S90000x1024_0_1 : S90000x1.BroadcastsInDim S90000x1024 (![0, 1] : Fin 2 → Fin S90000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S_S64x8 : S_.BroadcastsInDim S64x8 (![] : Fin 0 → Fin S64x8.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S64x1 : S_.BroadcastsInDim S64x1 (![] : Fin 0 → Fin S64x1.rank)
  bcast_S64x1_S64x8_0_1 : S64x1.BroadcastsInDim S64x8 (![0, 1] : Fin 2 → Fin S64x8.rank)
  scatter_S10000_S90000x1_S90000_n_0_0_1_wf : ScatterDims.WF S10000 S90000x1 S90000 [] [0] [0] 1
  dot_S10000x128_S128x1024_S10000x1024_1_0_0_1_n_n_wf : DotDims.WF S10000x128 S128x1024 S10000x1024 [1] [0] [0] [1] [] []
  gather_S10000_S90000x1_S90000_n_0_n_n_0_1_1_wf : GatherDims.WF S10000 S90000x1 S90000 [] [0] [] [0] [] 1 ![1]
  gather_S10000x1024_S90000x1_S90000x1024_1_0_n_n_0_1_11024_wf : GatherDims.WF S10000x1024 S90000x1 S90000x1024 [1] [0] [] [0] [] 1 ![1, 1024]
  scatter_S10000x1024_S90000x1_S90000x1024_1_0_0_1_wf : ScatterDims.WF S10000x1024 S90000x1 S90000x1024 [1] [0] [0] 1
  dot_S10000x1024_S1024x1024_S10000x1024_1_0_0_1_n_n_wf : DotDims.WF S10000x1024 S1024x1024 S10000x1024 [1] [0] [0] [1] [] []
  dot_S10000x1024_S1024x8_S10000x8_1_0_0_1_n_n_wf : DotDims.WF S10000x1024 S1024x8 S10000x8 [1] [0] [0] [1] [] []
  scatter_S64x8_S10000x1_S10000x8_1_0_0_1_wf : ScatterDims.WF S64x8 S10000x1 S10000x8 [1] [0] [0] 1
  scatter_S64x1_S10000x1_S10000x1_1_0_0_1_wf : ScatterDims.WF S64x1 S10000x1 S10000x1 [1] [0] [0] 1

variable [Facts₀]

def scatter_S10000_S90000x1_S90000_n_0_0_1 : ScatterDims S10000 S90000x1 S90000 where
  updateWindowDims := []
  insertedWindowDims := [0]
  scatterDimsToOperandDims := [0]
  indexVectorDim := 1
  wf := scatter_S10000_S90000x1_S90000_n_0_0_1_wf
def dot_S10000x128_S128x1024_S10000x1024_1_0_0_1_n_n : DotDims S10000x128 S128x1024 S10000x1024 where
  lhsContracting := [1]
  rhsContracting := [0]
  lhsNonContracting := [0]
  rhsNonContracting := [1]
  lhsBatch := []
  rhsBatch := []
  wf := dot_S10000x128_S128x1024_S10000x1024_1_0_0_1_n_n_wf
def gather_S10000_S90000x1_S90000_n_0_n_n_0_1_1 : GatherDims S10000 S90000x1 S90000 where
  offsetDims := []
  collapsedSliceDims := [0]
  operandBatchingDims := []
  startIndicesBatchingDims := []
  startIndexMap := [0]
  indexVectorDim := 1
  sliceSizes := ![1]
  wf := gather_S10000_S90000x1_S90000_n_0_n_n_0_1_1_wf
def gather_S10000x1024_S90000x1_S90000x1024_1_0_n_n_0_1_11024 : GatherDims S10000x1024 S90000x1 S90000x1024 where
  offsetDims := [1]
  collapsedSliceDims := [0]
  operandBatchingDims := []
  startIndicesBatchingDims := []
  startIndexMap := [0]
  indexVectorDim := 1
  sliceSizes := ![1, 1024]
  wf := gather_S10000x1024_S90000x1_S90000x1024_1_0_n_n_0_1_11024_wf
def scatter_S10000x1024_S90000x1_S90000x1024_1_0_0_1 : ScatterDims S10000x1024 S90000x1 S90000x1024 where
  updateWindowDims := [1]
  insertedWindowDims := [0]
  scatterDimsToOperandDims := [0]
  indexVectorDim := 1
  wf := scatter_S10000x1024_S90000x1_S90000x1024_1_0_0_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def dot_S10000x1024_S1024x8_S10000x8_1_0_0_1_n_n : DotDims S10000x1024 S1024x8 S10000x8 where
  lhsContracting := [1]
  rhsContracting := [0]
  lhsNonContracting := [0]
  rhsNonContracting := [1]
  lhsBatch := []
  rhsBatch := []
  wf := dot_S10000x1024_S1024x8_S10000x8_1_0_0_1_n_n_wf
def scatter_S64x8_S10000x1_S10000x8_1_0_0_1 : ScatterDims S64x8 S10000x1 S10000x8 where
  updateWindowDims := [1]
  insertedWindowDims := [0]
  scatterDimsToOperandDims := [0]
  indexVectorDim := 1
  wf := scatter_S64x8_S10000x1_S10000x8_1_0_0_1_wf
def scatter_S64x1_S10000x1_S10000x1_1_0_0_1 : ScatterDims S64x1 S10000x1 S10000x1 where
  updateWindowDims := [1]
  insertedWindowDims := [0]
  scatterDimsToOperandDims := [0]
  indexVectorDim := 1
  wf := scatter_S64x1_S10000x1_S10000x1_1_0_0_1_wf

class Facts : Prop extends Facts₀ where

variable [Facts]
-- ==== Proof.RunValue.lean ====
/-
  The program's run with its result named.

  @main is eleven segments: stretches of host operations and the three pallas_calls between them. The contents of the
  TensorCore's buffers at each segment boundary are a fold from the launch memory: a stretch applies its operations,
  a pallas_call replaces its result array by what its write-backs leave and keeps every other buffer. Every weakly
  fair execution terminates with every unscoped buffer at the last boundary's contents; read at the result buffer this
  is the value the program returns, and read at an argument it is the launch contents.
-/
import proofs.«114088_j26542897889601_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v97) = W11 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v97 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.RunValue

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«114088_j26542897889601_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.Product0.lean ====
/-
  Pallas call number 0 of the program as one whole-array function.

  The call's grid has ten points. Point t stages rows 1000·t … 1000·t + 999 of the left operand and the whole right
  operand, multiplies the two blocks into a zero accumulator, and writes the product back into rows
  1000·t … 1000·t + 999 of the result. On the extended reals a change of float format is the identity and a product
  into a zero accumulator is the plain sum over the contracted axis, so entry (r, q) of the block written at point t
  is Σ_k lhs(1000·t + r, k) · rhs(k, q): the block is the restriction of the whole product to its rows, and the ten
  blocks tile the result's rows. Hence the result array holds the whole product of the two operand arrays as the call
  finds them: the host's dot_general of them.
-/
import proofs.«114088_j26542897889601_1_alg».proof.Proof.Gen.KernelIdeal.Frame
import proofs.«114088_j26542897889601_1_alg».proof.Proof.LibHostDot
import Idealize.ShloMosaic.Lib.Pipeline.Value
import Idealize.ShloMosaic.Lib.ValueIdx

set_option maxRecDepth 16384

noncomputable section

open scoped BigOperators

namespace Cert.KernelIdeal.Product0

open Cert.KernelIdeal Cert.KernelIdeal.Gen Idealize.ShloMosaic Idealize.ShloMosaic.TcCoe Idealize.ShloMosaic.ValueIdx
open Idealize.SL.Sem Idealize.ShloMosaic.Pipeline
open Cert.LibPlainDot Cert.LibHostDot

/-- The dimension lists of the whole [10000, 128] × [128, 1024] product are well formed. -/
theorem wf : DotDims.WF ⟨2, ![10000, 128]⟩ ⟨2, ![128, 1024]⟩ ⟨2, ![10000, 1024]⟩ [1] [0] [0] [1] [] [] := by decide

/-- The whole product of the two operand arrays. -/
def whole (lhs : FVec Ideal ⟨2, ![10000, 128]⟩ .f32) (rhs : FVec Ideal ⟨2, ![128, 1024]⟩ .f32) :
    FVec Ideal ⟨2, ![10000, 1024]⟩ .f32 :=
  Host.dotGeneral (F := Ideal) (plainDot 10000 128 1024 wf) none lhs rhs

/-- The whole product at an entry: the sum over the contracted axis. -/
theorem whole_apply (lhs : FVec Ideal ⟨2, ![10000, 128]⟩ .f32) (rhs : FVec Ideal ⟨2, ![128, 1024]⟩ .f32)
    (p : Fin 10000) (q : Fin 1024) :
    whole lhs rhs (ix2 p q) = ∑ k : Fin 128, lhs (ix2 p k) * rhs (ix2 k q) :=
  hostDot_apply wf none lhs rhs p q

theorem hz : (![0, 0] : Fin 2 → Nat) = fun _ => 0 := funext fun a => by fin_cases a <;> rfl

/-- One point's product of its two blocks, at an entry of the block. -/
theorem block_apply (x0 : FVec Ideal ⟨2, ![1000, 128]⟩ .f32) (x1 : FVec Ideal ⟨2, ![128, 1024]⟩ .f32)
    (p : Fin 1000) (q : Fin 1024) :
    k0_pay1 (F := Ideal) x0 x1 (ix2 p q) = ∑ k : Fin 128, x0 (ix2 p k) * x1 (ix2 k q) :=
  matmul_zero_apply dot_S1000x128_S128x1024_S1000x1024_1_0_0_1_n_n.wf none x0 x1 p q

/-- The printed index maps, decided over the grid: the left operand's block and the result's block are the same row
    block, and every other block index is 0. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point t writes back is rows 1000·t … of the whole product of the operand arrays. -/
theorem flushed_eq (c : Dev nD) (t : Fin cfg0.N) :
    (dat0 (F := Ideal) V c).flushed 2 t
      = ((cfg0.win 2).blk t).view.read (Elt Ideal) (whole (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S1000x128) hz, View.ld_unit_zero (S := S128x1024) hz]
  obtain ⟨e0, e1, e2, e3, e4⟩ := idx_facts t
  funext j
  obtain ⟨p, q, rfl⟩ : ∃ (p : Fin 1000) (q : Fin 1024), j = ix2 p q := ⟨j 0, j 1, eq_ix2 j⟩
  show k0_pay1 (F := Ideal) (iblk0 V c 0 t) (iblk0 V c 1 t) (ix2 p q)
      = whole (V c main_arg0) (V c main_arg3) (((cfg0.win 2).blk t).view.emb (ix2 p q))
  refine (block_apply (iblk0 V c 0 t) (iblk0 V c 1 t) p q).trans ?_
  have hrow : ((cfg0.win 2).blk t).view.emb (ix2 p q)
      = ix2 (⟨win0_2.index t (0 : Fin 2) * 1000 + p.val, by
          have h' : (((cfg0.win 2).blk t).view.emb (ix2 p q) 0).val < 10000 :=
            (((cfg0.win 2).blk t).view.emb (ix2 p q) 0).isLt
          have h : (((cfg0.win 2).blk t).view.emb (ix2 p q) 0).val = win0_2.index t (0 : Fin 2) * 1000 + 1 * p.val := rfl
          omega⟩ : Fin 10000) q := by
    funext a; apply Fin.ext
    match a with
    | ⟨0, _⟩ => show win0_2.index t (0 : Fin 2) * 1000 + 1 * p.val = win0_2.index t (0 : Fin 2) * 1000 + p.val; omega
    | ⟨1, _⟩ => show win0_2.index t (1 : Fin 2) * 1024 + 1 * q.val = q.val; omega
  rw [hrow, whole_apply]
  refine Finset.sum_congr rfl fun k _ => ?_
  congr 1
  · show V c main_arg0 (((cfg0.win 0).blk t).view.emb (ix2 p k)) = V c main_arg0 _
    refine congrArg _ (funext fun a => Fin.ext ?_)
    match a with
    | ⟨0, _⟩ => show win0_0.index t (0 : Fin 2) * 1000 + 1 * p.val = win0_2.index t (0 : Fin 2) * 1000 + p.val; omega
    | ⟨1, _⟩ => show win0_0.index t (1 : Fin 2) * 128 + 1 * k.val = k.val; omega
  · show V c main_arg3 (((cfg0.win 1).blk t).view.emb (ix2 k q)) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 1024 + 1 * q.val = q.val; omega

/-- An entry of the result array is in point t's block iff each coordinate is in the block's range on its axis. -/
theorem mem_blk (t : Fin cfg0.N) (i : S10000x1024.Idx) :
    i ∈ ((cfg0.win 2).blk t).view.set ↔ ∀ a : Fin 2, win0_2.index t a * S1000x1024.size a ≤ (i a).val
      ∧ (i a).val < win0_2.index t a * S1000x1024.size a + S1000x1024.size a := by
  show i ∈ ((View.whole main_v14).slice (win0_2.rect t)).set ↔ _
  rw [View.set_slice_whole, Rect.mem_set_unit]
  exact Iff.rfl

/-- The ten row blocks tile the result: row r is in the block of point r / 1000. -/
theorem cover (i : S10000x1024.Idx) :
    ∃ t : Fin cfg0.N, (cfg0.win 2).flush t = true ∧ i ∈ ((cfg0.win 2).blk t).view.set := by
  have hi0 : (i 0).val < 10000 := (i 0).isLt
  have hi1 : (i 1).val < 1024 := (i 1).isLt
  obtain ⟨t, ht⟩ := idx_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 1024 ≤ (i 1).val ∧ (i 1).val < win0_2.index t (1 : Fin 2) * 1024 + 1024
    omega

/-- THE RESULT ARRAY after the call: the whole product of the two operand arrays as the call finds them. -/
theorem final (c : Dev nD) :
    (dat0 (F := Ideal) V c).arrAt 2 cfg0.N = whole (V c main_arg0) (V c main_arg3) :=
  (dat0 (F := Ideal) V c).arrAt_eq_of_cover 2 (whole (V c main_arg0) (V c main_arg3))
    (fun t _ => flushed_eq V c t) cover

end Cert.KernelIdeal.Product0

end
-- ==== Proof.Product1.lean ====
/-
  Pallas call number 1 of the program as one whole-array function.

  The call's grid has ten points. Point t stages rows 1000·t … 1000·t + 999 of the left operand and the whole right
  operand, multiplies the two blocks into a zero accumulator, and writes the product back into rows
  1000·t … 1000·t + 999 of the result. On the extended reals a change of float format is the identity and a product
  into a zero accumulator is the plain sum over the contracted axis, so entry (r, q) of the block written at point t
  is Σ_k lhs(1000·t + r, k) · rhs(k, q): the block is the restriction of the whole product to its rows, and the ten
  blocks tile the result's rows. Hence the result array holds the whole product of the two operand arrays as the call
  finds them: the host's dot_general of them.
-/
import proofs.«114088_j26542897889601_1_alg».proof.Proof.Gen.KernelIdeal.Frame
import proofs.«114088_j26542897889601_1_alg».proof.Proof.LibHostDot
import Idealize.ShloMosaic.Lib.Pipeline.Value
import Idealize.ShloMosaic.Lib.ValueIdx

set_option maxRecDepth 16384

noncomputable section

open scoped BigOperators

namespace Cert.KernelIdeal.Product1

open Cert.KernelIdeal Cert.KernelIdeal.Gen Idealize.ShloMosaic Idealize.ShloMosaic.TcCoe Idealize.ShloMosaic.ValueIdx
open Idealize.SL.Sem Idealize.ShloMosaic.Pipeline
open Cert.LibPlainDot Cert.LibHostDot

/-- The dimension lists of the whole [10000, 1024] × [1024, 1024] product are well formed. -/
theorem wf : DotDims.WF ⟨2, ![10000, 1024]⟩ ⟨2, ![1024, 1024]⟩ ⟨2, ![10000, 1024]⟩ [1] [0] [0] [1] [] [] := by decide

/-- The whole product of the two operand arrays. -/
def whole (lhs : FVec Ideal ⟨2, ![10000, 1024]⟩ .f32) (rhs : FVec Ideal ⟨2, ![1024, 1024]⟩ .f32) :
    FVec Ideal ⟨2, ![10000, 1024]⟩ .f32 :=
  Host.dotGeneral (F := Ideal) (plainDot 10000 1024 1024 wf) none lhs rhs

/-- The whole product at an entry: the sum over the contracted axis. -/
theorem whole_apply (lhs : FVec Ideal ⟨2, ![10000, 1024]⟩ .f32) (rhs : FVec Ideal ⟨2, ![1024, 1024]⟩ .f32)
    (p : Fin 10000) (q : Fin 1024) :
    whole lhs rhs (ix2 p q) = ∑ k : Fin 1024, lhs (ix2 p k) * rhs (ix2 k q) :=
  hostDot_apply wf none lhs rhs p q

theorem hz : (![0, 0] : Fin 2 → Nat) = fun _ => 0 := funext fun a => by fin_cases a <;> rfl

/-- One point's product of its two blocks, at an entry of the block. -/
theorem block_apply (x0 : FVec Ideal ⟨2, ![1000, 1024]⟩ .f32) (x1 : FVec Ideal ⟨2, ![1024, 1024]⟩ .f32)
    (p : Fin 1000) (q : Fin 1024) :
    k1_pay1 (F := Ideal) x0 x1 (ix2 p q) = ∑ k : Fin 1024, x0 (ix2 p k) * x1 (ix2 k q) := by
  have h : k1_pay1 (F := Ideal) x0 x1
      = FloatOps.matmul (plainDot 1000 1024 1024 dot_S1000x1024_S1024x1024_S1000x1024_1_0_0_1_n_n.wf) none x0 x1
          (constant ⟨2, ![1000, 1024]⟩ .f32 0x00000000#32) := by
    unfold k1_pay1
    simp only [shapeCast_self]
    rfl
  rw [h]
  exact matmul_zero_apply dot_S1000x1024_S1024x1024_S1000x1024_1_0_0_1_n_n.wf none x0 x1 p q

/-- The printed index maps, decided over the grid: the left operand's block and the result's block are the same row
    block, and every other block index is 0. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every row block of the result is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What point t writes back is rows 1000·t … of the whole product of the operand arrays. -/
theorem flushed_eq (c : Dev nD) (t : Fin cfg1.N) :
    (dat1 (F := Ideal) V c).flushed 2 t
      = ((cfg1.win 2).blk t).view.read (Elt Ideal) (whole (V c main_v46) (V c main_arg5)) := by
  show (cfg1.win 2).cut (grid1.coords t) ((dat1 (F := Ideal) V c).after 2 t) = _
  rw [after1_2]
  unfold out1_2
  rw [View.canon_unit_zero hz]
  simp only [View.ld_unit_zero (S := S1000x1024) hz, View.ld_unit_zero (S := S1024x1024) hz]
  obtain ⟨e0, e1, e2, e3, e4⟩ := idx_facts t
  funext j
  obtain ⟨p, q, rfl⟩ : ∃ (p : Fin 1000) (q : Fin 1024), j = ix2 p q := ⟨j 0, j 1, eq_ix2 j⟩
  show k1_pay1 (F := Ideal) (iblk1 V c 0 t) (iblk1 V c 1 t) (ix2 p q)
      = whole (V c main_v46) (V c main_arg5) (((cfg1.win 2).blk t).view.emb (ix2 p q))
  refine (block_apply (iblk1 V c 0 t) (iblk1 V c 1 t) p q).trans ?_
  have hrow : ((cfg1.win 2).blk t).view.emb (ix2 p q)
      = ix2 (⟨win1_2.index t (0 : Fin 2) * 1000 + p.val, by
          have h' : (((cfg1.win 2).blk t).view.emb (ix2 p q) 0).val < 10000 :=
            (((cfg1.win 2).blk t).view.emb (ix2 p q) 0).isLt
          have h : (((cfg1.win 2).blk t).view.emb (ix2 p q) 0).val = win1_2.index t (0 : Fin 2) * 1000 + 1 * p.val := rfl
          omega⟩ : Fin 10000) q := by
    funext a; apply Fin.ext
    match a with
    | ⟨0, _⟩ => show win1_2.index t (0 : Fin 2) * 1000 + 1 * p.val = win1_2.index t (0 : Fin 2) * 1000 + p.val; omega
    | ⟨1, _⟩ => show win1_2.index t (1 : Fin 2) * 1024 + 1 * q.val = q.val; omega
  rw [hrow, whole_apply]
  refine Finset.sum_congr rfl fun k _ => ?_
  congr 1
  · show V c main_v46 (((cfg1.win 0).blk t).view.emb (ix2 p k)) = V c main_v46 _
    refine congrArg _ (funext fun a => Fin.ext ?_)
    match a with
    | ⟨0, _⟩ => show win1_0.index t (0 : Fin 2) * 1000 + 1 * p.val = win1_2.index t (0 : Fin 2) * 1000 + p.val; omega
    | ⟨1, _⟩ => show win1_0.index t (1 : Fin 2) * 1024 + 1 * k.val = k.val; omega
  · show V c main_arg5 (((cfg1.win 1).blk t).view.emb (ix2 k q)) = V c main_arg5 _
    refine congrArg _ (funext fun a => Fin.ext ?_)
    match a with
    | ⟨0, _⟩ => show win1_1.index t (0 : Fin 2) * 1024 + 1 * k.val = k.val; omega
    | ⟨1, _⟩ => show win1_1.index t (1 : Fin 2) * 1024 + 1 * q.val = q.val; omega

/-- An entry of the result array is in point t's block iff each coordinate is in the block's range on its axis. -/
theorem mem_blk (t : Fin cfg1.N) (i : S10000x1024.Idx) :
    i ∈ ((cfg1.win 2).blk t).view.set ↔ ∀ a : Fin 2, win1_2.index t a * S1000x1024.size a ≤ (i a).val
      ∧ (i a).val < win1_2.index t a * S1000x1024.size a + S1000x1024.size a := by
  show i ∈ ((View.whole main_v47).slice (win1_2.rect t)).set ↔ _
  rw [View.set_slice_whole, Rect.mem_set_unit]
  exact Iff.rfl

/-- The ten row blocks tile the result: row r is in the block of point r / 1000. -/
theorem cover (i : S10000x1024.Idx) :
    ∃ t : Fin cfg1.N, (cfg1.win 2).flush t = true ∧ i ∈ ((cfg1.win 2).blk t).view.set := by
  have hi0 : (i 0).val < 10000 := (i 0).isLt
  have hi1 : (i 1).val < 1024 := (i 1).isLt
  obtain ⟨t, ht⟩ := idx_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 1024 ≤ (i 1).val ∧ (i 1).val < win1_2.index t (1 : Fin 2) * 1024 + 1024
    omega

/-- THE RESULT ARRAY after the call: the whole product of the two operand arrays as the call finds them. -/
theorem final (c : Dev nD) :
    (dat1 (F := Ideal) V c).arrAt 2 cfg1.N = whole (V c main_v46) (V c main_arg5) :=
  (dat1 (F := Ideal) V c).arrAt_eq_of_cover 2 (whole (V c main_v46) (V c main_arg5))
    (fun t _ => flushed_eq V c t) cover

end Cert.KernelIdeal.Product1

end
-- ==== Proof.Product2.lean ====
/-
  Pallas call number 2 of the program as one whole-array function.

  The call's grid has ten points. Point t stages rows 1000·t … 1000·t + 999 of the left operand and the whole right
  operand, multiplies the two blocks into a zero accumulator, and writes the product back into rows
  1000·t … 1000·t + 999 of the result. On the extended reals a change of float format is the identity and a product
  into a zero accumulator is the plain sum over the contracted axis, so entry (r, q) of the block written at point t
  is Σ_k lhs(1000·t + r, k) · rhs(k, q): the block is the restriction of the whole product to its rows, and the ten
  blocks tile the result's rows. Hence the result array holds the whole product of the two operand arrays as the call
  finds them: the host's dot_general of them.
-/
import proofs.«114088_j26542897889601_1_alg».proof.Proof.Gen.KernelIdeal.Frame
import proofs.«114088_j26542897889601_1_alg».proof.Proof.LibHostDot
import Idealize.ShloMosaic.Lib.Pipeline.Value
import Idealize.ShloMosaic.Lib.ValueIdx

set_option maxRecDepth 16384

noncomputable section

open scoped BigOperators

namespace Cert.KernelIdeal.Product2

open Cert.KernelIdeal Cert.KernelIdeal.Gen Idealize.ShloMosaic Idealize.ShloMosaic.TcCoe Idealize.ShloMosaic.ValueIdx
open Idealize.SL.Sem Idealize.ShloMosaic.Pipeline
open Cert.LibPlainDot Cert.LibHostDot

/-- The dimension lists of the whole [10000, 1024] × [1024, 128] product are well formed. -/
theorem wf : DotDims.WF ⟨2, ![10000, 1024]⟩ ⟨2, ![1024, 128]⟩ ⟨2, ![10000, 128]⟩ [1] [0] [0] [1] [] [] := by decide

/-- The whole product of the two operand arrays. -/
def whole (lhs : FVec Ideal ⟨2, ![10000, 1024]⟩ .f32) (rhs : FVec Ideal ⟨2, ![1024, 128]⟩ .f32) :
    FVec Ideal ⟨2, ![10000, 128]⟩ .f32 :=
  Host.dotGeneral (F := Ideal) (plainDot 10000 1024 128 wf) none lhs rhs

/-- The whole product at an entry: the sum over the contracted axis. -/
theorem whole_apply (lhs : FVec Ideal ⟨2, ![10000, 1024]⟩ .f32) (rhs : FVec Ideal ⟨2, ![1024, 128]⟩ .f32)
    (p : Fin 10000) (q : Fin 128) :
    whole lhs rhs (ix2 p q) = ∑ k : Fin 1024, lhs (ix2 p k) * rhs (ix2 k q) :=
  hostDot_apply wf none lhs rhs p q

theorem hz : (![0, 0] : Fin 2 → Nat) = fun _ => 0 := funext fun a => by fin_cases a <;> rfl

/-- One point's product of its two blocks, at an entry of the block. -/
theorem block_apply (x0 : FVec Ideal ⟨2, ![1000, 1024]⟩ .f32) (x1 : FVec Ideal ⟨2, ![1024, 128]⟩ .f32)
    (p : Fin 1000) (q : Fin 128) :
    k2_pay1 (F := Ideal) x0 x1 (ix2 p q) = ∑ k : Fin 1024, x0 (ix2 p k) * x1 (ix2 k q) := by
  have h : k2_pay1 (F := Ideal) x0 x1
      = FloatOps.matmul (plainDot 1000 1024 128 dot_S1000x1024_S1024x128_S1000x128_1_0_0_1_n_n.wf) none x0 x1
          (constant ⟨2, ![1000, 128]⟩ .f32 0x00000000#32) := by
    unfold k2_pay1
    simp only [shapeCast_self]
    rfl
  rw [h]
  exact matmul_zero_apply dot_S1000x1024_S1024x128_S1000x128_1_0_0_1_n_n.wf none x0 x1 p q

/-- The printed index maps, decided over the grid: the left operand's block and the result's block are the same row
    block, and every other block index is 0. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point t writes back is rows 1000·t … of the whole product of the operand arrays. -/
theorem flushed_eq (c : Dev nD) (t : Fin cfg2.N) :
    (dat2 (F := Ideal) V c).flushed 2 t
      = ((cfg2.win 2).blk t).view.read (Elt Ideal) (whole (V c main_v78) (V c main_v79)) := by
  show (cfg2.win 2).cut (grid2.coords t) ((dat2 (F := Ideal) V c).after 2 t) = _
  rw [after2_2]
  unfold out2_2
  rw [View.canon_unit_zero hz]
  simp only [View.ld_unit_zero (S := S1000x1024) hz, View.ld_unit_zero (S := S1024x128) hz]
  obtain ⟨e0, e1, e2, e3, e4⟩ := idx_facts t
  funext j
  obtain ⟨p, q, rfl⟩ : ∃ (p : Fin 1000) (q : Fin 128), j = ix2 p q := ⟨j 0, j 1, eq_ix2 j⟩
  show k2_pay1 (F := Ideal) (iblk2 V c 0 t) (iblk2 V c 1 t) (ix2 p q)
      = whole (V c main_v78) (V c main_v79) (((cfg2.win 2).blk t).view.emb (ix2 p q))
  refine (block_apply (iblk2 V c 0 t) (iblk2 V c 1 t) p q).trans ?_
  have hrow : ((cfg2.win 2).blk t).view.emb (ix2 p q)
      = ix2 (⟨win2_2.index t (0 : Fin 2) * 1000 + p.val, by
          have h' : (((cfg2.win 2).blk t).view.emb (ix2 p q) 0).val < 10000 :=
            (((cfg2.win 2).blk t).view.emb (ix2 p q) 0).isLt
          have h : (((cfg2.win 2).blk t).view.emb (ix2 p q) 0).val = win2_2.index t (0 : Fin 2) * 1000 + 1 * p.val := rfl
          omega⟩ : Fin 10000) q := by
    funext a; apply Fin.ext
    match a with
    | ⟨0, _⟩ => show win2_2.index t (0 : Fin 2) * 1000 + 1 * p.val = win2_2.index t (0 : Fin 2) * 1000 + p.val; omega
    | ⟨1, _⟩ => show win2_2.index t (1 : Fin 2) * 128 + 1 * q.val = q.val; omega
  rw [hrow, whole_apply]
  refine Finset.sum_congr rfl fun k _ => ?_
  congr 1
  · show V c main_v78 (((cfg2.win 0).blk t).view.emb (ix2 p k)) = V c main_v78 _
    refine congrArg _ (funext fun a => Fin.ext ?_)
    match a with
    | ⟨0, _⟩ => show win2_0.index t (0 : Fin 2) * 1000 + 1 * p.val = win2_2.index t (0 : Fin 2) * 1000 + p.val; omega
    | ⟨1, _⟩ => show win2_0.index t (1 : Fin 2) * 1024 + 1 * k.val = k.val; omega
  · show V c main_v79 (((cfg2.win 1).blk t).view.emb (ix2 k q)) = V c main_v79 _
    refine congrArg _ (funext fun a => Fin.ext ?_)
    match a with
    | ⟨0, _⟩ => show win2_1.index t (0 : Fin 2) * 1024 + 1 * k.val = k.val; omega
    | ⟨1, _⟩ => show win2_1.index t (1 : Fin 2) * 128 + 1 * q.val = q.val; omega

/-- An entry of the result array is in point t's block iff each coordinate is in the block's range on its axis. -/
theorem mem_blk (t : Fin cfg2.N) (i : S10000x128.Idx) :
    i ∈ ((cfg2.win 2).blk t).view.set ↔ ∀ a : Fin 2, win2_2.index t a * S1000x128.size a ≤ (i a).val
      ∧ (i a).val < win2_2.index t a * S1000x128.size a + S1000x128.size a := by
  show i ∈ ((View.whole main_v81).slice (win2_2.rect t)).set ↔ _
  rw [View.set_slice_whole, Rect.mem_set_unit]
  exact Iff.rfl

/-- The ten row blocks tile the result: row r is in the block of point r / 1000. -/
theorem cover (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ := idx_onto ⟨(i 0).val / 1000, by omega⟩
  have q0 : win2_2.index t (0 : Fin 2) = (i 0).val / 1000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 128 ≤ (i 1).val ∧ (i 1).val < win2_2.index t (1 : Fin 2) * 128 + 128
    omega

/-- THE RESULT ARRAY after the call: the whole product of the two operand arrays as the call finds them. -/
theorem final (c : Dev nD) :
    (dat2 (F := Ideal) V c).arrAt 2 cfg2.N = whole (V c main_v78) (V c main_v79) :=
  (dat2 (F := Ideal) V c).arrAt_eq_of_cover 2 (whole (V c main_v78) (V c main_v79))
    (fun t _ => flushed_eq V c t) cover

end Cert.KernelIdeal.Product2

end
-- ==== Proof.Boundaries.lean ====
/-
  What the buffers hold at the boundaries between the program's segments.

  The buffer contents at the segment boundaries are a fold from the launch memory: a host stretch applies its
  operations, a pallas_call replaces its result array and keeps every other buffer. Read at the buffers the later
  segments use: an argument array is as launched at every boundary; the two edge lists and the normalisation vector
  computed before the first call pass every call and every later stretch untouched; each call's result array is the
  whole product of its two operand arrays as the call finds them; and the third call's right operand and the bias
  added after it are the read-out weight and bias padded with the padding scalar.
-/
import proofs.«114088_j26542897889601_1_alg».proof.Proof.Gen.KernelIdeal.Frame
import proofs.«114088_j26542897889601_1_alg».proof.Proof.Product0
import proofs.«114088_j26542897889601_1_alg».proof.Proof.Product1
import proofs.«114088_j26542897889601_1_alg».proof.Proof.Product2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## An argument array is as launched at every boundary that reads it -/

theorem W1_arg0 : W1 m ρ c (Proc.devRef .tc main_arg0) = m ((c : Thread nD τ).loc main_arg0) := by
  after_results_simp <;> rfl
theorem W2_arg0 : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (W1_arg0 m ρ c)))
theorem W1_arg2 : W1 m ρ c (Proc.devRef .tc main_arg2) = m ((c : Thread nD τ).loc main_arg2) := by
  after_results_simp <;> rfl
theorem W2_arg2 : W2 m ρ c (Proc.devRef .tc main_arg2) = m ((c : Thread nD τ).loc main_arg2) :=
  (W2_of_ne m ρ c main_arg2 (by decide)).trans (W1_arg2 m ρ c)
theorem W1_arg3 : W1 m ρ c (Proc.devRef .tc main_arg3) = m ((c : Thread nD τ).loc main_arg3) := by
  after_results_simp <;> rfl
theorem W2_arg3 : W2 m ρ c (Proc.devRef .tc main_arg3) = m ((c : Thread nD τ).loc main_arg3) :=
  (W2_arr m ρ c 1).trans (((dat0 (V1 m ρ) c).arrAt_in 1 rfl _).trans ((A_eq0 (V1 m ρ) c 1).trans (W1_arg3 m ρ c)))
theorem W1_arg4 : W1 m ρ c (Proc.devRef .tc main_arg4) = m ((c : Thread nD τ).loc main_arg4) := by
  after_results_simp <;> rfl
theorem W2_arg4 : W2 m ρ c (Proc.devRef .tc main_arg4) = m ((c : Thread nD τ).loc main_arg4) :=
  (W2_of_ne m ρ c main_arg4 (by decide)).trans (W1_arg4 m ρ c)
theorem W1_arg5 : W1 m ρ c (Proc.devRef .tc main_arg5) = m ((c : Thread nD τ).loc main_arg5) := by
  after_results_simp <;> rfl
theorem W2_arg5 : W2 m ρ c (Proc.devRef .tc main_arg5) = m ((c : Thread nD τ).loc main_arg5) :=
  (W2_of_ne m ρ c main_arg5 (by decide)).trans (W1_arg5 m ρ c)
theorem W1_arg6 : W1 m ρ c (Proc.devRef .tc main_arg6) = m ((c : Thread nD τ).loc main_arg6) := by
  after_results_simp <;> rfl
theorem W2_arg6 : W2 m ρ c (Proc.devRef .tc main_arg6) = m ((c : Thread nD τ).loc main_arg6) :=
  (W2_of_ne m ρ c main_arg6 (by decide)).trans (W1_arg6 m ρ c)
theorem W1_arg7 : W1 m ρ c (Proc.devRef .tc main_arg7) = m ((c : Thread nD τ).loc main_arg7) := by
  after_results_simp <;> rfl
theorem W2_arg7 : W2 m ρ c (Proc.devRef .tc main_arg7) = m ((c : Thread nD τ).loc main_arg7) :=
  (W2_of_ne m ρ c main_arg7 (by decide)).trans (W1_arg7 m ρ c)
theorem W1_arg8 : W1 m ρ c (Proc.devRef .tc main_arg8) = m ((c : Thread nD τ).loc main_arg8) := by
  after_results_simp <;> rfl
theorem W2_arg8 : W2 m ρ c (Proc.devRef .tc main_arg8) = m ((c : Thread nD τ).loc main_arg8) :=
  (W2_of_ne m ρ c main_arg8 (by decide)).trans (W1_arg8 m ρ c)
theorem W4_arg2 : W4 m ρ c (Proc.devRef .tc main_arg2) = m ((c : Thread nD τ).loc main_arg2) := by
  after_results_simp
  exact W2_arg2 m ρ c
theorem W4_arg5 : W4 m ρ c (Proc.devRef .tc main_arg5) = m ((c : Thread nD τ).loc main_arg5) := by
  after_results_simp
  exact W2_arg5 m ρ c
theorem W4_arg6 : W4 m ρ c (Proc.devRef .tc main_arg6) = m ((c : Thread nD τ).loc main_arg6) := by
  after_results_simp
  exact W2_arg6 m ρ c
theorem W4_arg7 : W4 m ρ c (Proc.devRef .tc main_arg7) = m ((c : Thread nD τ).loc main_arg7) := by
  after_results_simp
  exact W2_arg7 m ρ c
theorem W4_arg8 : W4 m ρ c (Proc.devRef .tc main_arg8) = m ((c : Thread nD τ).loc main_arg8) := by
  after_results_simp
  exact W2_arg8 m ρ c
theorem W5_arg2 : W5 m ρ c (Proc.devRef .tc main_arg2) = m ((c : Thread nD τ).loc main_arg2) :=
  (W5_of_ne m ρ c main_arg2 (by decide)).trans (W4_arg2 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)
theorem W9_arg2 : W9 m ρ c (Proc.devRef .tc main_arg2) = m ((c : Thread nD τ).loc main_arg2) := by
  after_results_simp
  exact W5_arg2 m ρ c
theorem W10_arg2 : W10 m ρ c (Proc.devRef .tc main_arg2) = m ((c : Thread nD τ).loc main_arg2) :=
  (W10_of_ne m ρ c main_arg2 (by decide)).trans (W9_arg2 m ρ c)

/-! ## The edge lists and the normalisation vector pass every pallas_call and every later stretch untouched -/

theorem W2_v3 : W2 m ρ c (Proc.devRef .tc main_v3) = W1 m ρ c (Proc.devRef .tc main_v3) :=
  W2_of_ne m ρ c main_v3 (by decide)
theorem W4_v3 : W4 m ρ c (Proc.devRef .tc main_v3) = W2 m ρ c (Proc.devRef .tc main_v3) := by
  after_results_simp
theorem W5_v3 : W5 m ρ c (Proc.devRef .tc main_v3) = W4 m ρ c (Proc.devRef .tc main_v3) :=
  W5_of_ne m ρ c main_v3 (by decide)
theorem W2_v6 : W2 m ρ c (Proc.devRef .tc main_v6) = W1 m ρ c (Proc.devRef .tc main_v6) :=
  W2_of_ne m ρ c main_v6 (by decide)
theorem W4_v6 : W4 m ρ c (Proc.devRef .tc main_v6) = W2 m ρ c (Proc.devRef .tc main_v6) := by
  after_results_simp
theorem W5_v6 : W5 m ρ c (Proc.devRef .tc main_v6) = W4 m ρ c (Proc.devRef .tc main_v6) :=
  W5_of_ne m ρ c main_v6 (by decide)
theorem W2_v13 : W2 m ρ c (Proc.devRef .tc main_v13) = W1 m ρ c (Proc.devRef .tc main_v13) :=
  W2_of_ne m ρ c main_v13 (by decide)
theorem W4_v13 : W4 m ρ c (Proc.devRef .tc main_v13) = W2 m ρ c (Proc.devRef .tc main_v13) := by
  after_results_simp
theorem W5_v13 : W5 m ρ c (Proc.devRef .tc main_v13) = W4 m ρ c (Proc.devRef .tc main_v13) :=
  W5_of_ne m ρ c main_v13 (by decide)

/-! ## Each pallas_call's result array is the whole product of its operand arrays -/

theorem W2_v14 : W2 m ρ c (Proc.devRef .tc main_v14)
    = Product0.whole (m ((c : Thread nD τ).loc main_arg0)) (m ((c : Thread nD τ).loc main_arg3)) :=
  (W2_arr m ρ c 2).trans ((Product0.final (V1 m ρ) c).trans
    (congrArg₂ Product0.whole (W1_arg0 m ρ c) (W1_arg3 m ρ c)))

theorem W5_v47 : W5 m ρ c (Proc.devRef .tc main_v47)
    = Product1.whole (W4 m ρ c (Proc.devRef .tc main_v46)) (m ((c : Thread nD τ).loc main_arg5)) :=
  (W5_arr m ρ c 2).trans ((Product1.final (V4 m ρ) c).trans
    (congrArg (Product1.whole (W4 m ρ c (Proc.devRef .tc main_v46))) (W4_arg5 m ρ c)))

theorem W10_v81 : W10 m ρ c (Proc.devRef .tc main_v81)
    = Product2.whole (W9 m ρ c (Proc.devRef .tc main_v78)) (W9 m ρ c (Proc.devRef .tc main_v79)) :=
  (W10_arr m ρ c 2).trans (Product2.final (V9 m ρ) c)

/-! ## The padded read-out weight and bias -/

theorem W9_v79 : W9 m ρ c (Proc.devRef .tc main_v79)
    = pad S1024x128 ![0, 0] ![0, 120] ![0, 0] (m ((c : Thread nD τ).loc main_arg7))
        (sitofp (F := Ideal) .f32 (constantI S_ 32 0#32)) pads_S1024x8_S1024x128_000_01200 h_S_ := by
  after_results_simp
  rw [W5_arg7 m ρ c]
  rfl

theorem W9_v80 : W9 m ρ c (Proc.devRef .tc main_v80)
    = pad S128 ![0] ![120] ![0] (m ((c : Thread nD τ).loc main_arg8))
        (sitofp (F := Ideal) .f32 (constantI S_ 32 0#32)) pads_S8_S128_01200 h_S_ := by
  after_results_simp
  rw [W5_arg8 m ρ c]
  rfl

theorem W10_v80 : W10 m ρ c (Proc.devRef .tc main_v80) = W9 m ρ c (Proc.devRef .tc main_v80) :=
  W10_of_ne m ρ c main_v80 (by decide)

end Cert.KernelIdeal.Chain

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Readout.lean ====
/-
  The read-out layer: a product against a zero-padded weight, cut back to the weight's own columns.

  The kernel pads the [1024, 8] weight with 120 zero columns and the bias with 120 zero entries, multiplies the hidden
  array by the padded weight, adds the padded bias, applies tanh and keeps columns 0 … 7. Entry (p, q) with q < 8 of
  the padded product is Σ_k h(p, k) · Wl(k, q), since column q of the padded weight is column q of the weight, and
  entry q of the padded bias is bl(q). So the kept columns are tanh(h · Wl + bl), entry by entry: what the reference
  computes with the unpadded weight and bias. The dropped columns play no part.
-/
import proofs.«114088_j26542897889601_1_alg».proof.Proof.Gen.KernelIdeal
import proofs.«114088_j26542897889601_1_alg».proof.Proof.Gen.ReferenceIdeal
import proofs.«114088_j26542897889601_1_alg».proof.Proof.Product2
import proofs.«114088_j26542897889601_1_alg».proof.Proof.LibHostDot
import proofs.«114088_j26542897889601_1_alg».proof.Proof.LibColumn
import Idealize.ShloMosaic.Lib.KernelVsHost
import Idealize.ShloMosaic.Lib.Pipeline.Value
import Idealize.ShloMosaic.Lib.ValueIdx

set_option maxRecDepth 16384

noncomputable section

open scoped BigOperators

namespace Cert.Readout

open Idealize.ShloMosaic Idealize.ShloMosaic.ValueIdx
open Cert.LibPlainDot Cert.LibHostDot Cert.LibColumn

/-- The kept columns of tanh(h · pad(Wl) + pad(bl)) are tanh(h · Wl + bl). -/
theorem kept_columns (H : FVec Ideal ⟨2, ![10000, 1024]⟩ .f32) (Wl : FVec Ideal ⟨2, ![1024, 8]⟩ .f32)
    (bl : FVec Ideal ⟨1, ![8]⟩ .f32) (z : FVec Ideal ⟨0, ![]⟩ .f32)
    (hpW : (⟨2, ![1024, 8]⟩ : Shape).Pads (![0, 0] : Fin 2 → Nat) ![0, 120] ![0, 0] ⟨2, ![1024, 128]⟩)
    (hpb : (⟨1, ![8]⟩ : Shape).Pads (![0] : Fin 1 → Nat) ![120] ![0] ⟨1, ![128]⟩)
    (hu : 0 < (⟨0, ![]⟩ : Shape).numel)
    (hb1 : (⟨1, ![128]⟩ : Shape).BroadcastsInDim ⟨2, ![1, 128]⟩ ![1])
    (hb2 : (⟨2, ![1, 128]⟩ : Shape).BroadcastsInDim ⟨2, ![10000, 128]⟩ ![0, 1])
    (hs : (⟨2, ![10000, 128]⟩ : Shape).Slices ![0, 0] ⟨2, ![10000, 8]⟩)
    (hr1 : (⟨1, ![8]⟩ : Shape).BroadcastsInDim ⟨2, ![1, 8]⟩ ![1])
    (hr2 : (⟨2, ![1, 8]⟩ : Shape).BroadcastsInDim ⟨2, ![10000, 8]⟩ ![0, 1]) :
    extractStridedSlice ⟨2, ![10000, 8]⟩ ![0, 0]
        (Host.tanh (F := Ideal) (addf
          (Cert.KernelIdeal.Product2.whole H
            (pad ⟨2, ![1024, 128]⟩ ![0, 0] ![0, 120] ![0, 0] Wl z
              hpW hu))
          (broadcastInDim ⟨2, ![10000, 128]⟩ ![0, 1] hb2
            (broadcastInDim ⟨2, ![1, 128]⟩ ![1] hb1
              (pad ⟨1, ![128]⟩ ![0] ![120] ![0] bl z
                hpb hu)))))
        hs
      = Host.tanh (F := Ideal) (addf
          (Host.dotGeneral (F := Ideal) Cert.ReferenceIdeal.dot_S10000x1024_S1024x8_S10000x8_1_0_0_1_n_n none H Wl)
          (broadcastInDim ⟨2, ![10000, 8]⟩ ![0, 1] hr2
            (broadcastInDim ⟨2, ![1, 8]⟩ ![1] hr1 bl))) := by
  funext j
  obtain ⟨p, q, rfl⟩ : ∃ (p : Fin 10000) (q : Fin 8), j = ix2 p q := ⟨j 0, j 1, eq_ix2 j⟩
  have hq : q.val < 128 := by have := q.isLt; omega
  rw [extractStridedSlice_apply ![0, 0] _ hs (ix2 p q)
      (ix2 p (⟨q.val, hq⟩ : Fin 128)) (fun a => by
        match a with
        | ⟨0, _⟩ => show p.val = 0 + p.val; omega
        | ⟨1, _⟩ => show q.val = 0 + q.val; omega)]
  simp only [Host.tanh, addf_apply]
  refine congrArg _ (congrArg₂ _ ?_ ?_)
  · rw [Cert.KernelIdeal.Product2.whole_apply]
    refine Eq.trans ?_ (hostDot_apply Cert.ReferenceIdeal.dot_S10000x1024_S1024x8_S10000x8_1_0_0_1_n_n.wf none H Wl p q).symm
    refine Finset.sum_congr rfl fun k _ => ?_
    congr 1
    exact pad_apply_of_inside ![0, 0] ![0, 120] ![0, 0] Wl z hpW
      hu (ix2 k (⟨q.val, hq⟩ : Fin 128)) (ix2 k q) (fun a => by
        match a with
        | ⟨0, _⟩ => show k.val = 0 + k.val * (0 + 1); omega
        | ⟨1, _⟩ => show q.val = 0 + q.val * (0 + 1); omega)
  · rw [bcastInDim_1b_ab_apply, bcastInDim_b_1b_apply, bcastInDim_1b_ab_apply, bcastInDim_b_1b_apply]
    exact pad_apply_of_inside ![0] ![120] ![0] bl z hpb
      hu (ix1 (⟨q.val, hq⟩ : Fin 128)) (ix1 q) (fun a => by
        match a with
        | ⟨0, _⟩ => show q.val = 0 + q.val * (0 + 1); omega)

end Cert.Readout

end
-- ==== Proof.Composition.lean ====
/-
  The program's result is the reference's.

  Unrolled from the last boundary back to the launch memory, the returned array is a composition of the host
  operations with each pallas_call's whole product in the place the reference has a dot_general: the graph
  preparation (edge lists with self loops, degrees, the normalisation vector), the first layer over x · W1, relu, the
  second layer over its product with W2, the read-out, and the mean pooling over graphs. The first two products are the
  reference's own dot_generals of the same operands. The third is taken against the zero-padded read-out weight and the
  padded columns are dropped after tanh, which leaves tanh(h · Wl + bl), the reference's read-out. Everything else is
  the same operation applied to the same operands, so the two results are one array.
-/
import proofs.«114088_j26542897889601_1_alg».proof.Proof.Gen.KernelIdeal.Frame
import proofs.«114088_j26542897889601_1_alg».proof.Proof.Gen.ReferenceIdeal.Run
import proofs.«114088_j26542897889601_1_alg».proof.Proof.Boundaries
import proofs.«114088_j26542897889601_1_alg».proof.Proof.Readout
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 8000000 in
/-- The array the program returns is the reference's composed term of arguments that agree. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    W11 m ρ c (Proc.devRef .tc main_v97) = Cert.ReferenceIdeal.Value.res_main_v94 m' c := by
  after_results_simp
  rw [W10_v81 m ρ c, W10_v80 m ρ c, W10_arg2 m ρ c, W9_v79 m ρ c, W9_v80 m ρ c]
  rw [Cert.Readout.kept_columns (W9 m ρ c (Proc.devRef .tc main_v78)) (m ((c : Thread nD τ).loc main_arg7))
      (m ((c : Thread nD τ).loc main_arg8)) _ _ _ _ _ _ _
      Cert.ReferenceIdeal.Gen.bcast_S8_S1x8_1 Cert.ReferenceIdeal.Gen.bcast_S1x8_S10000x8_0_1]
  after_results_simp
  rw [W5_v47 m ρ c, W5_v3 m ρ c, W5_v6 m ρ c, W5_v13 m ρ c, W5_arg6 m ρ c]
  after_results_simp
  rw [W2_v14 m ρ c, W2_v3 m ρ c, W2_v6 m ρ c, W2_v13 m ρ c, W2_arg4 m ρ c]
  after_results_simp
  unfold Cert.ReferenceIdeal.Value.res_main_v94
  rw [h0, h1, h2, h3, h4, h5, h6, h7, h8]
  rfl

end Cert.KernelIdeal.Chain

end
-- ==== Proof.lean ====
/-
  A two-layer graph convolution with a tanh read-out and mean pooling, whose three dense products run as pallas_calls,
  against the same network written with plain matrix products.

  Both programs build the same edge lists (the given edges and one self loop per node), the same degree vector and
  its inverse square root, and pass messages the same way: gather the rows of a dense product h · W by source node,
  scale each by the product of the two end points' normalisations, scatter-add by destination node, add the bias. The
  kernel computes each dense product in ten row blocks of 1000 rows, casting the blocks to a narrower float format
  before multiplying; on the extended reals the cast is the identity and a row block of a product is the product of
  the row block, so each call's result array is the whole product (Product0, Product1, Product2). The read-out product
  is taken against the weight padded with zero columns and cut back to the weight's own eight columns after the bias
  and tanh, which changes no kept entry (Readout). Every other operation is the same operation on the same operands
  in both programs, so the pooled results agree entry by entry (Composition). No step uses that the inputs are
  finite: no term is moved across a sum or cancelled. The word-level kernel and its idealization differ in no
  operation, so the preservation claim has no conjunct.
-/
import proofs.«114088_j26542897889601_1_alg».proof.Defs
import proofs.«114088_j26542897889601_1_alg».proof.Proof.Gen.Kernel
import proofs.«114088_j26542897889601_1_alg».proof.Proof.Gen.Kernel.Skeleton
import proofs.«114088_j26542897889601_1_alg».proof.Proof.Gen.Kernel.Launch
import proofs.«114088_j26542897889601_1_alg».proof.Proof.Gen.Kernel.Points
import proofs.«114088_j26542897889601_1_alg».proof.Proof.Gen.Kernel.Frame
import proofs.«114088_j26542897889601_1_alg».proof.Proof.Gen.KernelIdeal
import proofs.«114088_j26542897889601_1_alg».proof.Proof.Gen.KernelIdeal.Skeleton
import proofs.«114088_j26542897889601_1_alg».proof.Proof.Gen.KernelIdeal.Launch
import proofs.«114088_j26542897889601_1_alg».proof.Proof.Gen.KernelIdeal.Points
import proofs.«114088_j26542897889601_1_alg».proof.Proof.Gen.KernelIdeal.Frame
import proofs.«114088_j26542897889601_1_alg».proof.Proof.Gen.ReferenceIdeal
import proofs.«114088_j26542897889601_1_alg».proof.Proof.Gen.Pre_finite_inputs
import proofs.«114088_j26542897889601_1_alg».proof.Proof.Gen.ReferenceIdeal.Run
import proofs.«114088_j26542897889601_1_alg».proof.Proof.RunValue
import proofs.«114088_j26542897889601_1_alg».proof.Proof.Composition
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end, with the same pooled array: the kernel's run names
    its result as the last boundary's contents, the reference's run names its own composed term, and the two are
    equal. -/
theorem algebraic : Cert.algebraic_KernelIdeal_ReferenceIdeal := by
  intro m ρ m' ρ' _ hagree
  refine ⟨fun c => Cert.KernelIdeal.Gen.W11 m ρ c (Proc.devRef .tc Cert.KernelIdeal.main_v97),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact (Cert.KernelIdeal.Chain.result_eq m ρ c m' h0 h1 h2 h3 h4 h5 h6 h7 h8).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
